-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x512 : Shape := ⟨2, ![512, 512]⟩
abbrev S512 : Shape := ⟨1, ![512]⟩
abbrev S4096x4096 : Shape := ⟨2, ![4096, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x512 .f32) (main_arg1 : FVec F S512x512 .f32) (main_arg2 : FVec F S512 .f32) (main_arg3 : FVec F S4096x4096 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x512 : Shape := ⟨2, ![4096, 512]⟩
abbrev S512x512 : Shape := ⟨2, ![512, 512]⟩
abbrev S512 : Shape := ⟨1, ![512]⟩
abbrev S4096x4096 : Shape := ⟨2, ![4096, 4096]⟩
abbrev S1x512 : Shape := ⟨2, ![1, 512]⟩
abbrev S512x2048 : Shape := ⟨2, ![512, 2048]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x4096, .f32⟩
  | .hbm, ⟨4, _⟩ => ⟨S1x512, .f32⟩
  | .hbm, ⟨5, _⟩ => ⟨S4096x512, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .f32⟩
  | .local _ .vmem, ⟨5, _⟩ => ⟨S2048x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x2048_S2048x512_S512x512_1_0_0_1_n_n_wf : DotDims.WF S512x2048 S2048x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S4096x512.size a
  hwx0_2 : ∀ i : grid0.Coords, EltTy.bits .f32 = 32 ∨ (Rect.block (s := S4096x512) S2048x512.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S4096x512.size a
  hwx0_3 : ∀ i : grid0.Coords, EltTy.bits .f32 = 32 ∨ (Rect.block (s := S4096x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x512.size a
  hwx0_6 : ∀ i : grid0.Coords, EltTy.bits .f32 = 32 ∨ (Rect.block (s := S4096x512) S512x512.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x512.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x512 : Shape := ⟨2, ![4096, 512]⟩
abbrev S512x512 : Shape := ⟨2, ![512, 512]⟩
abbrev S512 : Shape := ⟨1, ![512]⟩
abbrev S4096x4096 : Shape := ⟨2, ![4096, 4096]⟩
abbrev S1x512 : Shape := ⟨2, ![1, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S4096x4096, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.LibSharedFrame.lean ====
/-
  A pipelined kernel may be handed ONE array through several input windows (the same states read once
  as query rows and once as key rows).  The windows then hold fractional shares of that array's buffer,
  and the launch needs to be told how the buffers behind the arrays, each owned whole, split into the
  windows' shares.  This module states the frame run of such a kernel once, for any program: given that
  split, the body's obligation at every grid point, and an invariant carried from point to point that
  starts from and returns to "the kernel's scratch buffers at some contents", every weakly fair execution
  of the program terminates with each window's array at what the write-backs leave in it and every other
  unscoped buffer as the region found it.  No program is mentioned here.
-/
import Idealize.ShloMosaic.Lib.Pipeline.Frame

noncomputable section

namespace Cert.SharedFrame

open Idealize.ShloMosaic Idealize.ShloMosaic.Pipeline Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of pipeline `p` when its windows may share arrays.  `hsplit` says how the distinct buffers
    behind the arrays, each whole at the region-entry contents `V`, make the windows' shares at entry; `hin` and
    `hout` tie the point-to-point invariant to the scratch buffers held at some contents before the first point and
    after the last.  The kernel may use no semaphore of its own and not the generator register. -/
theorem run (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show _ ⊢ (scopedRest (Ix := Unit) (Name := ℕ) (U := UR sig nD τ) (Lvl := ℕ) (Val := Val) (cfgs p).spec c : sProp 𝕄) by
        iintro ⟨-, HR⟩; iexact HR).trans (hin c))
    (hout := fun c => (hout c).trans (by
        iintro HR
        isplitr
        · iempintro
        · iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => h c)

end Cert.SharedFrame

end
-- ==== Proof.KernelFrame.lean ====
/-
  The frame run of the fused kernel, at any float instance.

  The kernel is a pipeline over 8 row blocks.  At point t it is handed: the left and the right half
  (2048 columns each) of rows 512t .. 512t+511 of the adjacency matrix, through two windows on ONE
  array; the upper and the lower half (2048 rows each) of the feature matrix, again two windows on one
  array; the weight matrix and the bias row whole; and it writes back one 512 x 512 block of the result.
  Because two pairs of windows read one array each, every window of a pair holds half of that array's
  share, and the launch is told how the five distinct buffers split into the seven windows' shares.

  What the body leaves in the output buffer is its one store's payload over the six input blocks; the
  body also loads the output buffer before storing into it, which reads whatever is there and is unused.
-/
import proofs.«109454_g20478404067403_cont_8to1_2012_3_alg».proof.Proof.Gen.Kernel.Launch
import proofs.«109454_g20478404067403_cont_8to1_2012_3_alg».proof.Proof.Gen.Kernel.Skeleton
import proofs.«109454_g20478404067403_cont_8to1_2012_3_alg».proof.Proof.Gen.Kernel.Points
import proofs.«109454_g20478404067403_cont_8to1_2012_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Shared

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers as the region finds them: after the one host operation (the bias reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

abbrev rA : Rect S512x2048 := Rect.unit (s := S512x2048) ![0, 0] S512x2048.size Facts₀.inb_S512x2048_S512x2048_0_0
abbrev rX : Rect S2048x512 := Rect.unit (s := S2048x512) ![0, 0] S2048x512.size Facts₀.inb_S2048x512_S2048x512_0_0
abbrev rW : Rect S512x512 := Rect.unit (s := S512x512) ![0, 0] S512x512.size Facts₀.inb_S512x512_S512x512_0_0
abbrev rB : Rect S1x512 := Rect.unit (s := S1x512) ![0, 0] S1x512.size Facts₀.inb_S1x512_S1x512_0_0

/-- What the body leaves in the output buffer, from the six input blocks: its one store, which fills the buffer. -/
def outBlk (a0 a1 : Vec F S512x2048 .f32) (x0 x1 : Vec F S2048x512 .f32) (w : Vec F S512x512 .f32) (b : Vec F S1x512 .f32) : Vec F S512x512 .f32 :=
  View.canon [⟨rW, k0_pay1 (View.ld x0 rX) (View.ld x1 rX) (View.ld a0 rA) (View.ld a1 rA) (View.ld w rW) (View.ld b rB)⟩]

theorem outCover (p0 : Vec F S512x512 .f32) (y : S512x512.Idx) :
    ∃ pc ∈ ([⟨rW, p0⟩] : List (View.Piece (Elt F) S512x512 .f32)), y ∈ pc.1.set :=
  View.cover_of_tiled [⟨rW, p0⟩] S512x512.size (by rfl) y

set_option maxHeartbeats 1000000 in
/-- The body on whole staging buffers: the six inputs are read and left as they were, the output buffer,
    whatever it held, ends at `outBlk` of the inputs. -/
theorem sound_kernel (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S2048x512 .f32) (harg3 : arg3.IsWhole) (arg4 : Memref sig .tc .vmem S2048x512 .f32) (harg4 : arg4.IsWhole)
    (arg5 : Memref sig .tc .vmem S512x512 .f32) (harg5 : arg5.IsWhole) (arg6 : Memref sig .tc .vmem S1x512 .f32) (harg6 : arg6.IsWhole)
    (arg7 : Memref sig .tc .vmem S512x512 .f32) (harg7 : arg7.IsWhole)
    (a0 a1 : Vec F S512x2048 .f32) (x0 x1 : Vec F S2048x512 .f32) (w : Vec F S512x512 .f32) (b : Vec F S1x512 .f32) (K : PUnit → sProp 𝕄) :
    iprop(owns (c : Thread nD τ) arg1 fullShare a0 ∗ owns (c : Thread nD τ) arg2 fullShare a1 ∗ owns (c : Thread nD τ) arg3 fullShare x0
        ∗ owns (c : Thread nD τ) arg4 fullShare x1 ∗ owns (c : Thread nD τ) arg5 fullShare w ∗ owns (c : Thread nD τ) arg6 fullShare b
        ∗ (∃ d, owns (c : Thread nD τ) arg7 fullShare d)
        ∗ (iprop(owns (c : Thread nD τ) arg1 fullShare a0 ∗ owns (c : Thread nD τ) arg2 fullShare a1 ∗ owns (c : Thread nD τ) arg3 fullShare x0
            ∗ owns (c : Thread nD τ) arg4 fullShare x1 ∗ owns (c : Thread nD τ) arg5 fullShare w ∗ owns (c : Thread nD τ) arg6 fullShare b
            ∗ owns (c : Thread nD τ) arg7 fullShare (outBlk a0 a1 x0 x1 w b)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The proof data -/

/-- The arrays as the region finds them; after the body each input buffer still holds its block and the output
    buffer holds `outBlk` of the six blocks; the body keeps nothing between points; the two windows on the
    adjacency matrix hold half of its share each, the two on the feature matrix likewise. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = outBlk (iblk m c 0 t) (iblk m c 1 t) (iblk m c 2 t) (iblk m c 3 t) (iblk m c 4 t) (iblk m c 5 t) := by
  dsimp only [dats]

/-- Each input buffer holds its window's block at every point, fetched there or not: an unfetched window's block
    index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0 m c t]; unfold Dat.blockOf iblk; rw [A_eq m c 0]; try rfl) t d).trans
    (by unfold Dat.fetched Dat.blockOf iblk; rw [A_eq m c 0]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1 m c t]; unfold Dat.blockOf iblk; rw [A_eq m c 1]; try rfl) t d).trans
    (by unfold Dat.fetched Dat.blockOf iblk; rw [A_eq m c 1]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2 m c t]; unfold Dat.blockOf iblk; rw [A_eq m c 2]; try rfl) t d).trans
    (by unfold Dat.fetched Dat.blockOf iblk; rw [A_eq m c 2]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3 m c t]; unfold Dat.blockOf iblk; rw [A_eq m c 3]; try rfl) t d).trans
    (by unfold Dat.fetched Dat.blockOf iblk; rw [A_eq m c 3]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4 m c t]; unfold Dat.blockOf iblk; rw [A_eq m c 4]; try rfl) t d).trans
    (by unfold Dat.fetched Dat.blockOf iblk; rw [A_eq m c 4]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5 m c t]; unfold Dat.blockOf iblk; rw [A_eq m c 5]; try rfl) t d).trans
    (by unfold Dat.fetched Dat.blockOf iblk; rw [A_eq m c 5]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The five buffers split into the seven windows' shares -/

theorem arrImage : Finset.univ.image (Pipeline.arrRef spec0) = [main_arg3, main_arg0, main_arg1, main_v0, main_v1].toFinset := by decide

/-- The adjacency matrix's buffer and the feature matrix's, each held whole, are halved between the two windows
    that read them; the weight matrix, the bias row and the result go whole to their one window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq _ arrImage (by decide), bigSep_W0]
  rw [(arr_whole0 0).set_eq_univ, (arr_whole0 2).set_eq_univ, (arr_whole0 4).set_eq_univ, (arr_whole0 5).set_eq_univ,
    (arr_whole0 6).set_eq_univ]
  show iprop((((c : Thread nD τ).loc main_arg3) ↦{fullShare} V m c main_arg3) ∗ (((c : Thread nD τ).loc main_arg0) ↦{fullShare} V m c main_arg0)
      ∗ (((c : Thread nD τ).loc main_arg1) ↦{fullShare} V m c main_arg1) ∗ (((c : Thread nD τ).loc main_v0) ↦{fullShare} V m c main_v0)
      ∗ (((c : Thread nD τ).loc main_v1) ↦{fullShare} V m c main_v1))
    ⊢ iprop((((c : Thread nD τ).loc main_arg3) ↦{fullShare.left} V m c main_arg3) ∗ (((c : Thread nD τ).loc main_arg3) ↦{fullShare.right} V m c main_arg3)
      ∗ (((c : Thread nD τ).loc main_arg0) ↦{fullShare.left} V m c main_arg0) ∗ (((c : Thread nD τ).loc main_arg0) ↦{fullShare.right} V m c main_arg0)
      ∗ (((c : Thread nD τ).loc main_arg1) ↦{fullShare} V m c main_arg1) ∗ (((c : Thread nD τ).loc main_v0) ↦{fullShare} V m c main_v0)
      ∗ (((c : Thread nD τ).loc main_v1) ↦{fullShare} V m c main_v1))
  iintro ⟨HA, HX, HW, HB, HO⟩
  have hA : ((((c : Thread nD τ).loc main_arg3) ↦{fullShare} V m c main_arg3) : sProp 𝕄)
      ⊢ iprop((((c : Thread nD τ).loc main_arg3) ↦{fullShare.left} V m c main_arg3) ∗ (((c : Thread nD τ).loc main_arg3) ↦{fullShare.right} V m c main_arg3)) :=
    (pointsTo_share (PosShare.mem_left_op_right fullShare)).1
  have hX : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  ihave HA2 := hA $$ HA
  ihave HX2 := hX $$ HX
  icases HA2 with ⟨HAl, HAr⟩
  icases HX2 with ⟨HXl, HXr⟩
  isplitl [HAl]; · iexact HAl
  isplitl [HAr]; · iexact HAr
  isplitl [HXl]; · iexact HXl
  isplitl [HXr]; · iexact HXr
  isplitl [HW]; · iexact HW
  isplitl [HB]; · iexact HB
  iexact HO

/-! ## The run and the frame -/

set_option backward.isDefEq.respectTransparency.types false in
/-- Every weakly fair execution terminates, every window's array ends at what the write-backs leave in it, every
    other unscoped buffer as the region found it. -/
theorem run_main : θ_run defs (onTc (τ := τ) (main (F := F))) (s₀ m ρ) (Pipeline.FramePost cfgs (dats m) 0 (V m)) :=
  Cert.SharedFrame.run cfgs (dats m) (0 : Fin 1) cellOf_inj winFacts₀0 block_pos0 arr_whole0 stage_whole0 defs₀ Variants.none m ρ main
    (fun c => (body_obligation m c).loose) (fun _ _ => rfl) (V m) (hmain m Variants.none) (hsplit m)
    (fun c => .rfl) (fun c => .rfl)

/-- After the run the four argument arrays are as launched: three are read through input windows, which are
    never written back, and the bias vector bypasses the region. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨kept_main_arg0 m r h c, kept_main_arg1 m r h c, kept_main_arg2 m r h c, kept_main_arg3 m r h c⟩)
    (run_main m ρ)

end Cert.Kernel.Shared

end
-- ==== Proof.KernelIdealFrame.lean ====
/-
  The frame run of the fused kernel, at any float instance.

  The kernel is a pipeline over 8 row blocks.  At point t it is handed: the left and the right half
  (2048 columns each) of rows 512t .. 512t+511 of the adjacency matrix, through two windows on ONE
  array; the upper and the lower half (2048 rows each) of the feature matrix, again two windows on one
  array; the weight matrix and the bias row whole; and it writes back one 512 x 512 block of the result.
  Because two pairs of windows read one array each, every window of a pair holds half of that array's
  share, and the launch is told how the five distinct buffers split into the seven windows' shares.

  What the body leaves in the output buffer is its one store's payload over the six input blocks; the
  body also loads the output buffer before storing into it, which reads whatever is there and is unused.
-/
import proofs.«109454_g20478404067403_cont_8to1_2012_3_alg».proof.Proof.Gen.KernelIdeal.Launch
import proofs.«109454_g20478404067403_cont_8to1_2012_3_alg».proof.Proof.Gen.KernelIdeal.Skeleton
import proofs.«109454_g20478404067403_cont_8to1_2012_3_alg».proof.Proof.Gen.KernelIdeal.Points
import proofs.«109454_g20478404067403_cont_8to1_2012_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Shared

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers as the region finds them: after the one host operation (the bias reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body -/

abbrev rA : Rect S512x2048 := Rect.unit (s := S512x2048) ![0, 0] S512x2048.size Facts₀.inb_S512x2048_S512x2048_0_0
abbrev rX : Rect S2048x512 := Rect.unit (s := S2048x512) ![0, 0] S2048x512.size Facts₀.inb_S2048x512_S2048x512_0_0
abbrev rW : Rect S512x512 := Rect.unit (s := S512x512) ![0, 0] S512x512.size Facts₀.inb_S512x512_S512x512_0_0
abbrev rB : Rect S1x512 := Rect.unit (s := S1x512) ![0, 0] S1x512.size Facts₀.inb_S1x512_S1x512_0_0

/-- What the body leaves in the output buffer, from the six input blocks: its one store, which fills the buffer. -/
def outBlk (a0 a1 : Vec F S512x2048 .f32) (x0 x1 : Vec F S2048x512 .f32) (w : Vec F S512x512 .f32) (b : Vec F S1x512 .f32) : Vec F S512x512 .f32 :=
  View.canon [⟨rW, k0_pay1 (View.ld x0 rX) (View.ld x1 rX) (View.ld a0 rA) (View.ld a1 rA) (View.ld w rW) (View.ld b rB)⟩]

theorem outCover (p0 : Vec F S512x512 .f32) (y : S512x512.Idx) :
    ∃ pc ∈ ([⟨rW, p0⟩] : List (View.Piece (Elt F) S512x512 .f32)), y ∈ pc.1.set :=
  View.cover_of_tiled [⟨rW, p0⟩] S512x512.size (by rfl) y

set_option maxHeartbeats 1000000 in
/-- The body on whole staging buffers: the six inputs are read and left as they were, the output buffer,
    whatever it held, ends at `outBlk` of the inputs. -/
theorem sound_kernel (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S2048x512 .f32) (harg3 : arg3.IsWhole) (arg4 : Memref sig .tc .vmem S2048x512 .f32) (harg4 : arg4.IsWhole)
    (arg5 : Memref sig .tc .vmem S512x512 .f32) (harg5 : arg5.IsWhole) (arg6 : Memref sig .tc .vmem S1x512 .f32) (harg6 : arg6.IsWhole)
    (arg7 : Memref sig .tc .vmem S512x512 .f32) (harg7 : arg7.IsWhole)
    (a0 a1 : Vec F S512x2048 .f32) (x0 x1 : Vec F S2048x512 .f32) (w : Vec F S512x512 .f32) (b : Vec F S1x512 .f32) (K : PUnit → sProp 𝕄) :
    iprop(owns (c : Thread nD τ) arg1 fullShare a0 ∗ owns (c : Thread nD τ) arg2 fullShare a1 ∗ owns (c : Thread nD τ) arg3 fullShare x0
        ∗ owns (c : Thread nD τ) arg4 fullShare x1 ∗ owns (c : Thread nD τ) arg5 fullShare w ∗ owns (c : Thread nD τ) arg6 fullShare b
        ∗ (∃ d, owns (c : Thread nD τ) arg7 fullShare d)
        ∗ (iprop(owns (c : Thread nD τ) arg1 fullShare a0 ∗ owns (c : Thread nD τ) arg2 fullShare a1 ∗ owns (c : Thread nD τ) arg3 fullShare x0
            ∗ owns (c : Thread nD τ) arg4 fullShare x1 ∗ owns (c : Thread nD τ) arg5 fullShare w ∗ owns (c : Thread nD τ) arg6 fullShare b
            ∗ owns (c : Thread nD τ) arg7 fullShare (outBlk a0 a1 x0 x1 w b)) -∗ K ⟨⟩))
      ⊢ wp frame (wpE (defs₀ (F := F)) Variants.none c none) E (cc0__fused_body i arg1 harg1 arg2 harg2 arg3 harg3 arg4 harg4 arg5 harg5 arg6 harg6 arg7 harg7) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The proof data -/

/-- The arrays as the region finds them; after the body each input buffer still holds its block and the output
    buffer holds `outBlk` of the six blocks; the body keeps nothing between points; the two windows on the
    adjacency matrix hold half of its share each, the two on the feature matrix likewise. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = outBlk (iblk m c 0 t) (iblk m c 1 t) (iblk m c 2 t) (iblk m c 3 t) (iblk m c 4 t) (iblk m c 5 t) := by
  dsimp only [dats]

/-- Each input buffer holds its window's block at every point, fetched there or not: an unfetched window's block
    index has not moved. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0 m c t]; unfold Dat.blockOf iblk; rw [A_eq m c 0]; try rfl) t d).trans
    (by unfold Dat.fetched Dat.blockOf iblk; rw [A_eq m c 0]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1 m c t]; unfold Dat.blockOf iblk; rw [A_eq m c 1]; try rfl) t d).trans
    (by unfold Dat.fetched Dat.blockOf iblk; rw [A_eq m c 1]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2 m c t]; unfold Dat.blockOf iblk; rw [A_eq m c 2]; try rfl) t d).trans
    (by unfold Dat.fetched Dat.blockOf iblk; rw [A_eq m c 2]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3 m c t]; unfold Dat.blockOf iblk; rw [A_eq m c 3]; try rfl) t d).trans
    (by unfold Dat.fetched Dat.blockOf iblk; rw [A_eq m c 3]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4 m c t]; unfold Dat.blockOf iblk; rw [A_eq m c 4]; try rfl) t d).trans
    (by unfold Dat.fetched Dat.blockOf iblk; rw [A_eq m c 4]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5 m c t]; unfold Dat.blockOf iblk; rw [A_eq m c 5]; try rfl) t d).trans
    (by unfold Dat.fetched Dat.blockOf iblk; rw [A_eq m c 5]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The five buffers split into the seven windows' shares -/

theorem arrImage : Finset.univ.image (Pipeline.arrRef spec0) = [main_arg3, main_arg0, main_arg1, main_v0, main_v1].toFinset := by decide

/-- The adjacency matrix's buffer and the feature matrix's, each held whole, are halved between the two windows
    that read them; the weight matrix, the bias row and the result go whole to their one window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq _ arrImage (by decide), bigSep_W0]
  rw [(arr_whole0 0).set_eq_univ, (arr_whole0 2).set_eq_univ, (arr_whole0 4).set_eq_univ, (arr_whole0 5).set_eq_univ,
    (arr_whole0 6).set_eq_univ]
  show iprop((((c : Thread nD τ).loc main_arg3) ↦{fullShare} V m c main_arg3) ∗ (((c : Thread nD τ).loc main_arg0) ↦{fullShare} V m c main_arg0)
      ∗ (((c : Thread nD τ).loc main_arg1) ↦{fullShare} V m c main_arg1) ∗ (((c : Thread nD τ).loc main_v0) ↦{fullShare} V m c main_v0)
      ∗ (((c : Thread nD τ).loc main_v1) ↦{fullShare} V m c main_v1))
    ⊢ iprop((((c : Thread nD τ).loc main_arg3) ↦{fullShare.left} V m c main_arg3) ∗ (((c : Thread nD τ).loc main_arg3) ↦{fullShare.right} V m c main_arg3)
      ∗ (((c : Thread nD τ).loc main_arg0) ↦{fullShare.left} V m c main_arg0) ∗ (((c : Thread nD τ).loc main_arg0) ↦{fullShare.right} V m c main_arg0)
      ∗ (((c : Thread nD τ).loc main_arg1) ↦{fullShare} V m c main_arg1) ∗ (((c : Thread nD τ).loc main_v0) ↦{fullShare} V m c main_v0)
      ∗ (((c : Thread nD τ).loc main_v1) ↦{fullShare} V m c main_v1))
  iintro ⟨HA, HX, HW, HB, HO⟩
  have hA : ((((c : Thread nD τ).loc main_arg3) ↦{fullShare} V m c main_arg3) : sProp 𝕄)
      ⊢ iprop((((c : Thread nD τ).loc main_arg3) ↦{fullShare.left} V m c main_arg3) ∗ (((c : Thread nD τ).loc main_arg3) ↦{fullShare.right} V m c main_arg3)) :=
    (pointsTo_share (PosShare.mem_left_op_right fullShare)).1
  have hX : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  ihave HA2 := hA $$ HA
  ihave HX2 := hX $$ HX
  icases HA2 with ⟨HAl, HAr⟩
  icases HX2 with ⟨HXl, HXr⟩
  isplitl [HAl]; · iexact HAl
  isplitl [HAr]; · iexact HAr
  isplitl [HXl]; · iexact HXl
  isplitl [HXr]; · iexact HXr
  isplitl [HW]; · iexact HW
  isplitl [HB]; · iexact HB
  iexact HO

/-! ## The run and the frame -/

set_option backward.isDefEq.respectTransparency.types false in
/-- Every weakly fair execution terminates, every window's array ends at what the write-backs leave in it, every
    other unscoped buffer as the region found it. -/
theorem run_main : θ_run defs (onTc (τ := τ) (main (F := F))) (s₀ m ρ) (Pipeline.FramePost cfgs (dats m) 0 (V m)) :=
  Cert.SharedFrame.run cfgs (dats m) (0 : Fin 1) cellOf_inj winFacts₀0 block_pos0 arr_whole0 stage_whole0 defs₀ Variants.none m ρ main
    (fun c => (body_obligation m c).loose) (fun _ _ => rfl) (V m) (hmain m Variants.none) (hsplit m)
    (fun c => .rfl) (fun c => .rfl)

/-- After the run the four argument arrays are as launched: three are read through input windows, which are
    never written back, and the bias vector bypasses the region. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 4).trans (((dats m 0 c).arrAt_in 4 rfl _).trans ((A_eq m c 4).trans (V_main_arg1 m c)))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨kept_main_arg0 m r h c, kept_main_arg1 m r h c, kept_main_arg2 m r h c, kept_main_arg3 m r h c⟩)
    (run_main m ρ)

end Cert.KernelIdeal.Shared

end
-- ==== Proof.Spec.lean ====
/-
  One dense graph-convolution layer over the extended reals, entry by entry:

      out[r, q] = max( (sum over j < 512 of (sum over k < 4096 of A[r, k] * x[k, j]) * W[j, q]) + b[q], 0 ).

  The inner sum runs over all 4096 neighbours of row r.  A program that keeps the neighbours in two
  halves of 2048 computes the same number: a finite sum in a commutative monoid is the sum of its
  first half and its second half, and the extended reals under addition are one, so nothing here
  needs the entries to be finite.  No program is mentioned in this module.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.GraphLayer

open Idealize.ShloMosaic Idealize.ShloMosaic.ValueIdx

/-- A sum of 4096 terms is the sum of the first 2048 plus the sum of the last 2048. -/
theorem sum_halves {M : Type} [AddCommMonoid M] (f : Fin 4096 → M) :
    ∑ k : Fin 4096, f k
      = (∑ k : Fin 2048, f ⟨k.val, by have := k.isLt; omega⟩) + ∑ k : Fin 2048, f ⟨2048 + k.val, by have := k.isLt; omega⟩ :=
  Fin.sum_univ_add (a := 2048) (b := 2048) f

/-- The layer's result at entry `i = (r, q)`, from the features `x`, the weights `W`, the bias `b` and the
    adjacency matrix `A`. The zero of the final maximum is kept as the float word it is printed as. -/
def layer (x : (⟨2, ![4096, 512]⟩ : Shape).Idx → EReal) (W : (⟨2, ![512, 512]⟩ : Shape).Idx → EReal)
    (b : (⟨1, ![512]⟩ : Shape).Idx → EReal) (A : (⟨2, ![4096, 4096]⟩ : Shape).Idx → EReal) :
    (⟨2, ![4096, 512]⟩ : Shape).Idx → EReal := fun i =>
  max ((∑ j : Fin 512, (∑ k : Fin 4096, A (ix2 (i 0) k) * x (ix2 k j)) * W (ix2 j (i 1))) + b (ix1 (i 1)))
    (Ideal.ofBits .f32 0x00000000#32)

/-- The same entry with the neighbours kept in two halves, as a program that reads the adjacency
    row in two pieces of 2048 columns and the features in two pieces of 2048 rows computes it. -/
theorem layer_halves (x : (⟨2, ![4096, 512]⟩ : Shape).Idx → EReal) (W : (⟨2, ![512, 512]⟩ : Shape).Idx → EReal)
    (b : (⟨1, ![512]⟩ : Shape).Idx → EReal) (A : (⟨2, ![4096, 4096]⟩ : Shape).Idx → EReal)
    (i : (⟨2, ![4096, 512]⟩ : Shape).Idx) :
    layer x W b A i
      = max ((∑ j : Fin 512,
              ((∑ k : Fin 2048, A (ix2 (i 0) ⟨k.val, by have := k.isLt; omega⟩) * x (ix2 ⟨k.val, by have := k.isLt; omega⟩ j))
                + ∑ k : Fin 2048, A (ix2 (i 0) ⟨2048 + k.val, by have := k.isLt; omega⟩) * x (ix2 ⟨2048 + k.val, by have := k.isLt; omega⟩ j))
              * W (ix2 j (i 1))) + b (ix1 (i 1)))
          (Ideal.ofBits .f32 0x00000000#32) := by
  unfold layer
  refine congrArg (fun s => max (s + b (ix1 (i 1))) (Ideal.ofBits .f32 0x00000000#32)) ?_
  refine Finset.sum_congr rfl fun j _ => ?_
  rw [sum_halves (fun k => A (ix2 (i 0) k) * x (ix2 k j))]

/-- The entry from six BLOCKS. A program at row block `t` holds the left and right half of 512 rows of the
    adjacency matrix (`a0`, `a1`), the upper and lower half of the features (`x0`, `x1`), the weights (`w`) and the
    bias as one row (`b0`). If each block reads the arrays where it should — stated only at the indices this
    entry uses — then the two-halves expression over the blocks at the in-block index `y` is the layer's entry at
    the array index `i`. -/
theorem layer_of_blocks (a0 a1 : (⟨2, ![512, 2048]⟩ : Shape).Idx → EReal) (x0 x1 : (⟨2, ![2048, 512]⟩ : Shape).Idx → EReal)
    (w : (⟨2, ![512, 512]⟩ : Shape).Idx → EReal) (b0 : (⟨2, ![1, 512]⟩ : Shape).Idx → EReal)
    (x : (⟨2, ![4096, 512]⟩ : Shape).Idx → EReal) (W : (⟨2, ![512, 512]⟩ : Shape).Idx → EReal)
    (b : (⟨1, ![512]⟩ : Shape).Idx → EReal) (A : (⟨2, ![4096, 4096]⟩ : Shape).Idx → EReal)
    (y : (⟨2, ![512, 512]⟩ : Shape).Idx) (i : (⟨2, ![4096, 512]⟩ : Shape).Idx)
    (h0 : ∀ k : Fin 2048, a0 (ix2 (y 0) k) = A (ix2 (i 0) ⟨k.val, by have := k.isLt; omega⟩))
    (h1 : ∀ k : Fin 2048, a1 (ix2 (y 0) k) = A (ix2 (i 0) ⟨2048 + k.val, by have := k.isLt; omega⟩))
    (h2 : ∀ (k : Fin 2048) (j : Fin 512), x0 (ix2 k j) = x (ix2 ⟨k.val, by have := k.isLt; omega⟩ j))
    (h3 : ∀ (k : Fin 2048) (j : Fin 512), x1 (ix2 k j) = x (ix2 ⟨2048 + k.val, by have := k.isLt; omega⟩ j))
    (h4 : ∀ j : Fin 512, w (ix2 j (y 1)) = W (ix2 j (i 1)))
    (h5 : b0 (ix2 (0 : Fin 1) (y 1)) = b (ix1 (i 1))) :
    max ((∑ j : Fin 512, ((∑ k : Fin 2048, a0 (ix2 (y 0) k) * x0 (ix2 k j)) + ∑ k : Fin 2048, a1 (ix2 (y 0) k) * x1 (ix2 k j))
            * w (ix2 j (y 1))) + b0 (ix2 (0 : Fin 1) (y 1)))
        (Ideal.ofBits .f32 0x00000000#32)
      = layer x W b A i := by
  rw [layer_halves]
  simp only [h0, h1, h2, h3, h4, h5]

end Cert.GraphLayer

end
-- ==== Proof.KernelIdealValue.lean ====
/-
  What the fused kernel's result array holds after the run, over the extended reals.

  At row block t the kernel's one store writes, at in-block entry (p, q),
      max( (sum_j ((sum_k a0[p,k] * x0[k,j]) + (sum_k a1[p,k] * x1[k,j])) * w[j,q]) + b0[0,q], 0 ),
  where a0, a1 are the left and right 2048 columns of rows 512t .. 512t+511 of the adjacency matrix,
  x0, x1 the upper and lower 2048 rows of the features, w the weights and b0 the bias as one row:
  each matrix product into a zero accumulator is a plain sum, and a change of float format is the identity.
  Block t is written back to rows 512t .. 512t+511 of the result, the eight blocks fill it, so the result is
  the layer of the specification at every entry.
-/
import proofs.«109454_g20478404067403_cont_8to1_2012_3_alg».proof.Proof.KernelIdealFrame
import proofs.«109454_g20478404067403_cont_8to1_2012_3_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.SharedValue

open Cert.KernelIdeal Cert.KernelIdeal.Gen Cert.KernelIdeal.Shared
open Cert.KernelIdeal.Facts₀ Cert.KernelIdeal.Facts
open Idealize.ShloMosaic Idealize.ShloMosaic.TcCoe Idealize.SL.Sem Idealize.ShloMosaic.StableHlo
open Idealize.ShloMosaic.ValueIdx
open Idealize.ShloMosaic.Pipeline (Dat)
open Cert.GraphLayer (layer layer_of_blocks)

/-! ## The two matrix products at an entry -/

abbrev DA := dot_S512x2048_S2048x512_S512x512_1_0_0_1_n_n
abbrev DW := dot_S512x512_S512x512_S512x512_1_0_0_1_n_n

theorem lhsA_0 (i : S512x512.Idx) (q : DA.contr.Idx) : (DA.lhsIdx i q 0).val = (i 0).val := by
  unfold DotDims.lhsIdx
  rw [dif_neg (show ¬(0 : Fin S512x2048.rank) ∈ DA.lhsBatch by decide), dif_pos (show (0 : Fin S512x2048.rank) ∈ DA.lhsNonContracting by decide)]
  rfl
theorem lhsA_1 (i : S512x512.Idx) (q : DA.contr.Idx) : (DA.lhsIdx i q 1).val = (q ⟨0, by decide⟩).val :=
  DA.lhsIdx_val_of_single rfl i q
theorem rhsA_0 (i : S512x512.Idx) (q : DA.contr.Idx) : (DA.rhsIdx i q 0).val = (q ⟨0, by decide⟩).val :=
  DA.rhsIdx_val_of_single rfl i q
theorem rhsA_1 (i : S512x512.Idx) (q : DA.contr.Idx) : (DA.rhsIdx i q 1).val = (i 1).val := by
  unfold DotDims.rhsIdx
  rw [dif_neg (show ¬(1 : Fin S2048x512.rank) ∈ DA.rhsBatch by decide), dif_pos (show (1 : Fin S2048x512.rank) ∈ DA.rhsNonContracting by decide)]
  rfl

/-- A 512 x 2048 block times a 2048 x 512 block into zeros: the sum over the 2048 shared indices. -/
theorem mmA_apply (l : S512x2048.Idx → EReal) (r : S2048x512.Idx → EReal) (i : S512x512.Idx) :
    FloatOps.matmul (F := Ideal) (φ₁ := .bf16) (φ₂ := .bf16) DA none l r (constant (F := Ideal) S512x512 .f32 0x00000000#32) i
      = ∑ k : Fin 2048, l (ix2 (i 0) k) * r (ix2 k (i 1)) := by
  rw [Ideal.matmul_constant_zero_apply, ← Equiv.sum_comp (ValueIdx.contrEquiv1 DA 2048 rfl rfl).symm]
  refine Finset.sum_congr rfl fun k _ => ?_
  have hk := ValueIdx.contrEquiv1_symm_val DA 2048 rfl rfl k
  have el : DA.lhsIdx i ((ValueIdx.contrEquiv1 DA 2048 rfl rfl).symm k) = ix2 (i 0) k := funext fun a => Fin.ext (by
    match a with
    | ⟨0, _⟩ => exact lhsA_0 _ _
    | ⟨1, _⟩ => exact (lhsA_1 _ _).trans hk)
  have er : DA.rhsIdx i ((ValueIdx.contrEquiv1 DA 2048 rfl rfl).symm k) = ix2 k (i 1) := funext fun a => Fin.ext (by
    match a with
    | ⟨0, _⟩ => exact (rhsA_0 _ _).trans hk
    | ⟨1, _⟩ => exact rhsA_1 _ _)
  exact congrArg₂ (fun a b : EReal => a * b) (congrArg l el) (congrArg r er)

theorem lhsW_0 (i : S512x512.Idx) (q : DW.contr.Idx) : (DW.lhsIdx i q 0).val = (i 0).val := by
  unfold DotDims.lhsIdx
  rw [dif_neg (show ¬(0 : Fin S512x512.rank) ∈ DW.lhsBatch by decide), dif_pos (show (0 : Fin S512x512.rank) ∈ DW.lhsNonContracting by decide)]
  rfl
theorem lhsW_1 (i : S512x512.Idx) (q : DW.contr.Idx) : (DW.lhsIdx i q 1).val = (q ⟨0, by decide⟩).val :=
  DW.lhsIdx_val_of_single rfl i q
theorem rhsW_0 (i : S512x512.Idx) (q : DW.contr.Idx) : (DW.rhsIdx i q 0).val = (q ⟨0, by decide⟩).val :=
  DW.rhsIdx_val_of_single rfl i q
theorem rhsW_1 (i : S512x512.Idx) (q : DW.contr.Idx) : (DW.rhsIdx i q 1).val = (i 1).val := by
  unfold DotDims.rhsIdx
  rw [dif_neg (show ¬(1 : Fin S512x512.rank) ∈ DW.rhsBatch by decide), dif_pos (show (1 : Fin S512x512.rank) ∈ DW.rhsNonContracting by decide)]
  rfl

/-- A 512 x 512 block times the weights into zeros: the sum over the 512 shared indices. -/
theorem mmW_apply (l : S512x512.Idx → EReal) (r : S512x512.Idx → EReal) (i : S512x512.Idx) :
    FloatOps.matmul (F := Ideal) (φ₁ := .bf16) (φ₂ := .bf16) DW none l r (constant (F := Ideal) S512x512 .f32 0x00000000#32) i
      = ∑ j : Fin 512, l (ix2 (i 0) j) * r (ix2 j (i 1)) := by
  rw [Ideal.matmul_constant_zero_apply, ← Equiv.sum_comp (ValueIdx.contrEquiv1 DW 512 rfl rfl).symm]
  refine Finset.sum_congr rfl fun k _ => ?_
  have hk := ValueIdx.contrEquiv1_symm_val DW 512 rfl rfl k
  have el : DW.lhsIdx i ((ValueIdx.contrEquiv1 DW 512 rfl rfl).symm k) = ix2 (i 0) k := funext fun a => Fin.ext (by
    match a with
    | ⟨0, _⟩ => exact lhsW_0 _ _
    | ⟨1, _⟩ => exact (lhsW_1 _ _).trans hk)
  have er : DW.rhsIdx i ((ValueIdx.contrEquiv1 DW 512 rfl rfl).symm k) = ix2 k (i 1) := funext fun a => Fin.ext (by
    match a with
    | ⟨0, _⟩ => exact (rhsW_0 _ _).trans hk
    | ⟨1, _⟩ => exact rhsW_1 _ _)
  exact congrArg₂ (fun a b : EReal => a * b) (congrArg l el) (congrArg r er)

/-! ## The body's stored value at an entry -/

/-- The bias row broadcast down the block's 512 rows, read at an entry: the row's entry in that column. -/
theorem bias_apply (v15 : S1x512.Idx → EReal) (i : S512x512.Idx) :
    broadcastTo S512x512 (shapeCast S1x512 v15 Facts₀.shapeCasts_S1x512_S1x512) Facts₀.broadcasts_S1x512_S512x512 i = v15 (ix2 (0 : Fin 1) (i 1)) := by
  rw [shapeCast_self]
  exact broadcastTo_apply v15 Facts₀.broadcasts_S1x512_S512x512 i (ix2 (0 : Fin 1) (i 1)) (fun a => match a with
    | ⟨0, _⟩ => by show (0 : Nat) = if (1 : Nat) = 1 then 0 else _; rw [if_pos rfl]
    | ⟨1, _⟩ => by show (i 1).val = if (512 : Nat) = 1 then 0 else (i 1).val; rw [if_neg (by decide)])

/-- The stored value as the operations it is, the format changes dropped (each is the identity on extended reals). -/
theorem pay_ops (v0 v2 : S2048x512.Idx → EReal) (v4 v7 : S512x2048.Idx → EReal) (v11 : S512x512.Idx → EReal) (v15 : S1x512.Idx → EReal) (i : S512x512.Idx) :
    k0_pay1 (F := Ideal) v0 v2 v4 v7 v11 v15 i
      = max ((FloatOps.matmul (F := Ideal) (φ₁ := .bf16) (φ₂ := .bf16) DW none
                (fun r => FloatOps.matmul (F := Ideal) (φ₁ := .bf16) (φ₂ := .bf16) DA none v4 v0 (constant (F := Ideal) S512x512 .f32 0x00000000#32) r
                  + FloatOps.matmul (F := Ideal) (φ₁ := .bf16) (φ₂ := .bf16) DA none v7 v2 (constant (F := Ideal) S512x512 .f32 0x00000000#32) r)
                v11 (constant (F := Ideal) S512x512 .f32 0x00000000#32) i)
              + broadcastTo S512x512 (shapeCast S1x512 v15 Facts₀.shapeCasts_S1x512_S1x512) Facts₀.broadcasts_S1x512_S512x512 i)
          (Ideal.ofBits .f32 0x00000000#32) := rfl

/-- The stored value at entry `i` of the block, as sums over the blocks' entries. -/
theorem pay_apply (v0 v2 : S2048x512.Idx → EReal) (v4 v7 : S512x2048.Idx → EReal) (v11 : S512x512.Idx → EReal) (v15 : S1x512.Idx → EReal) (i : S512x512.Idx) :
    k0_pay1 (F := Ideal) v0 v2 v4 v7 v11 v15 i
      = max ((∑ j : Fin 512, ((∑ k : Fin 2048, v4 (ix2 (i 0) k) * v0 (ix2 k j)) + ∑ k : Fin 2048, v7 (ix2 (i 0) k) * v2 (ix2 k j))
                * v11 (ix2 j (i 1))) + v15 (ix2 (0 : Fin 1) (i 1)))
          (Ideal.ofBits .f32 0x00000000#32) := by
  have hM : (fun r : S512x512.Idx => FloatOps.matmul (F := Ideal) (φ₁ := .bf16) (φ₂ := .bf16) DA none v4 v0 (constant (F := Ideal) S512x512 .f32 0x00000000#32) r
        + FloatOps.matmul (F := Ideal) (φ₁ := .bf16) (φ₂ := .bf16) DA none v7 v2 (constant (F := Ideal) S512x512 .f32 0x00000000#32) r)
      = fun r => (∑ k : Fin 2048, v4 (ix2 (r 0) k) * v0 (ix2 k (r 1))) + ∑ k : Fin 2048, v7 (ix2 (r 0) k) * v2 (ix2 k (r 1)) :=
    funext fun r => by rw [mmA_apply, mmA_apply]
  rw [pay_ops, hM, mmW_apply, bias_apply]

/-! ## The blocks read off the argument arrays -/

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`, decided over the eight points: the two adjacency windows and the
    result move down with `t`, side by side; the two feature windows are the upper and lower half; the rest stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 1 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The bias as the region finds it: the bias vector laid out as one row. -/
theorem V_main_v0 (c : Dev nD) :
    (V m c main_v0 : S1x512.Idx → EReal) = shapeCast S1x512 (m ((c : Thread nD τ).loc main_arg2)) Facts₀.shapeCasts_S512_S1x512 := by
  dsimp only [V, hostOps0]; after_results; rfl

/-- WHAT POINT `t` WRITES BACK is block `t` of the layer of the argument arrays. -/
theorem flushed_eq (c : Dev nD) (t : Fin cfg0.N) :
    (dats m 0 c).flushed 6 t = ((cfg0.win 6).blk t).view.read (Elt Ideal)
      (layer (m ((c : Thread nD τ).loc main_arg0)) (m ((c : Thread nD τ).loc main_arg1)) (m ((c : Thread nD τ).loc main_arg2)) (m ((c : Thread nD τ).loc main_arg3))) := by
  show (cfg0.win 6).cut (grid0.coords t) ((dats m 0 c).after 6 t) = _
  rw [after6]
  unfold outBlk
  rw [View.canon_unit_zero hz]
  simp only [View.ld_unit_zero (S := S512x2048) hz, View.ld_unit_zero (S := S2048x512) hz, View.ld_unit_zero (S := S512x512) hz,
    View.ld_unit_zero (S := S1x512) hz]
  obtain ⟨e00, e01, e10, e11, e20, e21, e30, e31, e40, e41, e50, e51, e60, e61⟩ := idx_facts t
  have ht : t.val < 8 := by have h := t.isLt; have h8 : cfg0.N = 8 := N_0; omega
  funext y
  have hy0 : (y 0).val < 512 := (y 0).isLt
  have hy1 : (y 1).val < 512 := (y 1).isLt
  show k0_pay1 (F := Ideal) (iblk m c 2 t) (iblk m c 3 t) (iblk m c 0 t) (iblk m c 1 t) (iblk m c 4 t) (iblk m c 5 t) y
    = layer (m ((c : Thread nD τ).loc main_arg0)) (m ((c : Thread nD τ).loc main_arg1)) (m ((c : Thread nD τ).loc main_arg2)) (m ((c : Thread nD τ).loc main_arg3))
        (((cfg0.win 6).blk t).view.emb y)
  rw [pay_apply]
  refine layer_of_blocks _ _ _ _ _ _ _ _ _ _ y _ ?_ ?_ ?_ ?_ ?_ ?_
  · intro k
    have hk : k.val < 2048 := k.isLt
    show V m c main_arg3 (((cfg0.win 0).blk t).view.emb (ix2 (y 0) k)) = _
    rw [V_main_arg3]
    refine congrArg _ (funext fun a => Fin.ext ?_)
    match a with
    | ⟨0, _⟩ => show win0_0.index t (0 : Fin 2) * 512 + 1 * (y 0).val = win0_6.index t (0 : Fin 2) * 512 + 1 * (y 0).val; omega
    | ⟨1, _⟩ => show win0_0.index t (1 : Fin 2) * 2048 + 1 * k.val = k.val; omega
  · intro k
    have hk : k.val < 2048 := k.isLt
    show V m c main_arg3 (((cfg0.win 1).blk t).view.emb (ix2 (y 0) k)) = _
    rw [V_main_arg3]
    refine congrArg _ (funext fun a => Fin.ext ?_)
    match a with
    | ⟨0, _⟩ => show win0_1.index t (0 : Fin 2) * 512 + 1 * (y 0).val = win0_6.index t (0 : Fin 2) * 512 + 1 * (y 0).val; omega
    | ⟨1, _⟩ => show win0_1.index t (1 : Fin 2) * 2048 + 1 * k.val = 2048 + k.val; omega
  · intro k j
    have hk : k.val < 2048 := k.isLt
    show V m c main_arg0 (((cfg0.win 2).blk t).view.emb (ix2 k j)) = _
    rw [V_main_arg0]
    refine congrArg _ (funext fun a => Fin.ext ?_)
    match a with
    | ⟨0, _⟩ => show win0_2.index t (0 : Fin 2) * 2048 + 1 * k.val = k.val; omega
    | ⟨1, _⟩ => show win0_2.index t (1 : Fin 2) * 512 + 1 * j.val = j.val; omega
  · intro k j
    have hk : k.val < 2048 := k.isLt
    show V m c main_arg0 (((cfg0.win 3).blk t).view.emb (ix2 k j)) = _
    rw [V_main_arg0]
    refine congrArg _ (funext fun a => Fin.ext ?_)
    match a with
    | ⟨0, _⟩ => show win0_3.index t (0 : Fin 2) * 2048 + 1 * k.val = 2048 + k.val; omega
    | ⟨1, _⟩ => show win0_3.index t (1 : Fin 2) * 512 + 1 * j.val = j.val; omega
  · intro j
    show V m c main_arg1 (((cfg0.win 4).blk t).view.emb (ix2 j (y 1))) = _
    rw [V_main_arg1]
    refine congrArg _ (funext fun a => Fin.ext ?_)
    match a with
    | ⟨0, _⟩ => show win0_4.index t (0 : Fin 2) * 512 + 1 * j.val = j.val; omega
    | ⟨1, _⟩ => show win0_4.index t (1 : Fin 2) * 512 + 1 * (y 1).val = win0_6.index t (1 : Fin 2) * 512 + 1 * (y 1).val; omega
  · show V m c main_v0 (((cfg0.win 5).blk t).view.emb (ix2 (0 : Fin 1) (y 1))) = _
    rw [V_main_v0]
    refine shapeCast_apply _ _ _ _ ?_
    refine (Shape.rowMajor_val_one (d := ![512]) _).trans ?_
    refine Eq.trans ?_ (Shape.rowMajor_val_two (d := ![1, 512]) _).symm
    show win0_6.index t (1 : Fin 2) * 512 + 1 * (y 1).val = (win0_5.index t (0 : Fin 2) * 1 + 1 * 0) * 512 + (win0_5.index t (1 : Fin 2) * 512 + 1 * (y 1).val)
    omega

/-! ## The eight blocks fill the result -/

theorem mem_blk (t : Fin cfg0.N) (i : S4096x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v1).slice (win0_6.rect t)).set ↔ _
  rw [View.set_slice_whole, Rect.mem_set_unit]
  exact Iff.rfl

/-- Every row block is some point's. -/
theorem idx_onto : ∀ q0 : Fin 8, ∃ t : Fin cfg0.N, win0_6.index t = ![q0.val, 0] :=
  (by decide +kernel : ∀ q0 : Fin 8, ∃ t : Fin grid0.N, win0_6.index t = ![q0.val, 0])

/-- Every entry of the result lies in the block of the point that handles its row. -/
theorem covered (i : S4096x512.Idx) : ∃ t : Fin cfg0.N, (cfg0.win 6).flush t = true ∧ i ∈ ((cfg0.win 6).blk t).view.set := by
  have hi0 : (i 0).val < 4096 := (i 0).isLt
  have hi1 : (i 1).val < 512 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- THE RESULT ARRAY after the run is the layer of the argument arrays. -/
theorem final (c : Dev nD) :
    (dats m 0 c).arrAt 6 cfg0.N
      = layer (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed_eq m c t) covered

/-! ## The run, read -/

/-- Every weakly fair execution of the kernel's program terminates with the result array at the layer of the
    argument arrays, and the argument arrays unchanged. -/
theorem run : θ_run defs (onTc (τ := τ) (main (F := Ideal))) ⟨m, fun _ => 0, ρ⟩ fun r => ∀ c : Dev nD,
      r.2.mem ((c.tc : Thread nD τ).loc main_v1)
        = layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 6).trans (final m c), kept_main_arg0 m r h c, kept_main_arg1 m r h c,
      kept_main_arg2 m r h c, kept_main_arg3 m r h c⟩)
    (run_main m ρ)

end Cert.KernelIdeal.SharedValue

end
-- ==== Proof.RefLayer.lean ====
/-
  The reference program computes the layer of the specification.

  Its result is max((A·x)·W + b, 0) written as two full matrix products, the bias broadcast over the rows
  and a maximum with a broadcast zero. Read at an entry (r, q): the outer product sums over the 512 columns
  j of A·x, each of whose entries sums over all 4096 neighbours k; the bias entry is b[q]; the zero is the
  same float word the kernel uses. That is the specification's formula term for term.
-/
import proofs.«109454_g20478404067403_cont_8to1_2012_3_alg».proof.Proof.Gen.ReferenceIdeal.Read
import proofs.«109454_g20478404067403_cont_8to1_2012_3_alg».proof.Proof.Spec

noncomputable section

open scoped BigOperators

namespace Cert.ReferenceIdeal.RefLayer

open Cert.ReferenceIdeal Cert.ReferenceIdeal.Gen Cert.ReferenceIdeal.Read
open Idealize.ShloMosaic Idealize.ShloMosaic.ValueIdx
open Cert.GraphLayer (layer)

/-- The reference's last stage, as a function of the four argument arrays, is the layer. -/
theorem ref_eq (x0 : (⟨S4096x512, .f32⟩ : BufTy).Contents (Elt Ideal)) (x1 : (⟨S512x512, .f32⟩ : BufTy).Contents (Elt Ideal))
    (x2 : (⟨S512, .f32⟩ : BufTy).Contents (Elt Ideal)) (x3 : (⟨S4096x4096, .f32⟩ : BufTy).Contents (Elt Ideal)) :
    val_main_v5 (F := Ideal) x0 x1 x2 x3 = layer x0 x1 x2 x3 := by
  funext i
  have e1 : ∀ (k : Fin 512) (k' : Fin 4096), lidx_main_v0 (lidx_main_v1 i k) k' = ix2 (i 0) k' := fun k k' =>
    funext fun a => Fin.ext (by match a with | ⟨0, _⟩ => rfl | ⟨1, _⟩ => rfl)
  have e2 : ∀ (k : Fin 512) (k' : Fin 4096), ridx_main_v0 (lidx_main_v1 i k) k' = ix2 k' k := fun k k' =>
    funext fun a => Fin.ext (by match a with | ⟨0, _⟩ => rfl | ⟨1, _⟩ => rfl)
  have e3 : ∀ k : Fin 512, ridx_main_v1 i k = ix2 k (i 1) := fun k =>
    funext fun a => Fin.ext (by match a with | ⟨0, _⟩ => rfl | ⟨1, _⟩ => rfl)
  have e4 : idx_main_v2 (idx_main_v3 i) = ix1 (i 1) :=
    funext fun a => Fin.ext (by match a with | ⟨0, _⟩ => rfl)
  rw [val_main_v5_apply, val_main_v4_apply, val_main_v1_apply, val_main_v3_apply, val_main_v2_apply, val_main_call0_v0_apply,
    val_main_call0_cst_apply]
  simp only [val_main_v0_apply, e1, e2, e3, e4]
  rfl

end Cert.ReferenceIdeal.RefLayer

end
-- ==== Proof.lean ====
/-
  One dense graph-convolution layer, out = max((A·x)·W + b, 0) with A of size 4096 x 4096, x of size
  4096 x 512, W of size 512 x 512 and b of length 512, computed by a fused kernel and by a plain reference.

  The kernel walks the 4096 rows in eight blocks of 512. For each block it forms the neighbourhood sum
  in two halves — the left 2048 columns of the adjacency rows against the upper 2048 feature rows, plus the
  right 2048 columns against the lower 2048 rows —, multiplies by W, adds the bias and takes the maximum
  with zero. The reference forms A·x over all 4096 neighbours at once. Over the extended reals the two
  agree entry by entry: a finite sum is the sum of its two halves in any commutative monoid, a matrix
  product into a zero accumulator is the plain sum, and a change of float format is the identity. No entry
  needs to be finite for this, so the precondition is never opened.

  The frames: each program terminates without a fault and leaves its four argument arrays as launched.
  The kernel reads the adjacency matrix through two windows and the features through two windows, so in
  its frame each window of a pair holds half of the array's share. The idealized kernel is the kernel's
  own text read over the extended reals, with no rewrite to account for.
-/
import proofs.«109454_g20478404067403_cont_8to1_2012_3_alg».proof.Defs
import proofs.«109454_g20478404067403_cont_8to1_2012_3_alg».proof.Proof.Gen.Kernel
import proofs.«109454_g20478404067403_cont_8to1_2012_3_alg».proof.Proof.Gen.KernelIdeal
import proofs.«109454_g20478404067403_cont_8to1_2012_3_alg».proof.Proof.Gen.ReferenceIdeal
import proofs.«109454_g20478404067403_cont_8to1_2012_3_alg».proof.Proof.Gen.Pre_finite_inputs
import proofs.«109454_g20478404067403_cont_8to1_2012_3_alg».proof.Proof.Gen.ReferenceIdeal.Run
import proofs.«109454_g20478404067403_cont_8to1_2012_3_alg».proof.Proof.Gen.ReferenceIdeal.Read
import proofs.«109454_g20478404067403_cont_8to1_2012_3_alg».proof.Proof.KernelFrame
import proofs.«109454_g20478404067403_cont_8to1_2012_3_alg».proof.Proof.KernelIdealFrame
import proofs.«109454_g20478404067403_cont_8to1_2012_3_alg».proof.Proof.KernelIdealValue
import proofs.«109454_g20478404067403_cont_8to1_2012_3_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel := fun m ρ _ => Cert.Kernel.Shared.frame (F := Bits) m ρ

/-- So does the kernel read over the extended reals. -/
theorem frame_kernelIdeal : Cert.frame_KernelIdeal := fun m ρ _ => Cert.KernelIdeal.Shared.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the argument arrays in their result: the kernel block by block with the
    neighbours in two halves, the reference with whole matrix products. -/
theorem algebraic : Cert.algebraic_KernelIdeal_ReferenceIdeal := by
  intro m ρ m' ρ' _ hagree
  refine ⟨_, Cert.KernelIdeal.SharedValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefLayer.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
